-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x512x1024, .f32⟩
  | .local _ .vmem, ⟨21, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRun.lean ====
/-
  The idealized kernel's run with its result array named.

  @main is a stretch of host operations, the projection region, a second stretch (three reshapes) and the attention
  region.  Every weakly fair execution terminates without a fault, and in every final state the result buffer holds
  what the last region's write-backs leave — the contents at the last segment boundary, `Gen.W4` — while the seven
  argument arrays are as launched.  What `Gen.W4` holds at the result, index by index, is the subject of the
  neighbouring modules; here only the launch over the four segments is restated with the result kept in the post.
-/
import proofs.«148440_j18734647345730_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and each argument array as launched. -/
theorem run_value : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.AttnSpec.lean ====
/-
  Scaled dot-product attention over fixed shapes, as two index-by-index formulas on the extended reals.

  Batch 4, sequence 2048, width 1024.  A projection is  lin x W β (b,s,e) = (Σ_d x(b,s,d)·W(d,e)) + β(e).
  With q, k, v three such projections and a scale c, one output entry (b,i,e) is written in two arrangements:

  * scale folded into the query, normalisation after the value contraction:
      s_j = Σ_d (q(b,i,d)·c)·k(b,j,d),   M = max_j s_j (from -∞),   p_j = exp(s_j - M),
      out = (Σ_j p_j·v(b,j,e)) / (Σ_j p_j);
  * scale applied to the scores, every weight normalised before the value contraction:
      s_j = (Σ_d q(b,i,d)·k(b,j,d))·c,   M = max(-∞, max_j s_j),   p_j = exp(s_j - M),
      out = Σ_j (p_j / (0 + Σ_j' p_j'))·v(b,j,e).

  The quotient is the extended reals' `Ideal.div`, the exponential `Ideal.exp`.
-/
import Idealize.ShloMosaic.PureOps.Ideal
import Idealize.ShloMosaic.Lib.ValueIdx

noncomputable section

namespace Cert.Attn

open Idealize.ShloMosaic Idealize.ShloMosaic.ValueIdx

/-- A rank-3 array of extents 4 × 2048 × 1024. -/
abbrev Arr3 := (⟨3, ![4, 2048, 1024]⟩ : Shape).Idx → EReal
/-- A 1024 × 1024 matrix. -/
abbrev Mat := (⟨2, ![1024, 1024]⟩ : Shape).Idx → EReal
/-- A vector of 1024 entries. -/
abbrev Vec1 := (⟨1, ![1024]⟩ : Shape).Idx → EReal
/-- A batch of 2048 rows of width 1024, by coordinates. -/
abbrev Rows := Fin 4 → Fin 2048 → Fin 1024 → EReal

/-- An extended real that is a real number. -/
def IsReal (x : EReal) : Prop := ∃ r : ℝ, x = (r : EReal)

/-- The affine projection of row (b, s): the contraction of x's row with the columns of W, plus the bias. -/
def lin (x : Arr3) (W : Mat) (β : Vec1) : Rows :=
  fun b s e => (∑ d : Fin 1024, x (ix3 b s d) * W (ix2 d e)) + β (ix1 e)

/-- A row's maximum, folded from -∞. -/
def rowMax (s : Fin 2048 → EReal) : EReal := (Finset.univ : Finset (Fin 2048)).fold max ⊥ s

/-- Scores of query (b, i) with the scale folded into the query's entries. -/
def scoreK (c : EReal) (q k : Rows) (b : Fin 4) (i : Fin 2048) : Fin 2048 → EReal :=
  fun j => ∑ d : Fin 1024, (q b i d * c) * k b j d

/-- Scores of query (b, i) with the scale applied to the contracted product. -/
def scoreR (c : EReal) (q k : Rows) (b : Fin 4) (i : Fin 2048) : Fin 2048 → EReal :=
  fun j => (∑ d : Fin 1024, q b i d * k b j d) * c

/-- Unnormalised softmax weights of a score row whose maximum is taken to be M. -/
def weights (s : Fin 2048 → EReal) (M : EReal) : Fin 2048 → EReal := fun j => Ideal.exp (s j - M)

/-- The first arrangement: the weighted sum of values divided by the sum of weights. -/
def outK (c : EReal) (q k v : Rows) (b : Fin 4) (i : Fin 2048) (e : Fin 1024) : EReal :=
  Ideal.div (∑ j : Fin 2048, weights (scoreK c q k b i) (rowMax (scoreK c q k b i)) j * v b j e)
    (∑ j : Fin 2048, weights (scoreK c q k b i) (rowMax (scoreK c q k b i)) j)

/-- The second arrangement: every weight divided by the sum of weights, then contracted with the values. -/
def outR (c : EReal) (q k v : Rows) (b : Fin 4) (i : Fin 2048) (e : Fin 1024) : EReal :=
  ∑ j : Fin 2048,
    Ideal.div (weights (scoreR c q k b i) (max ⊥ (rowMax (scoreR c q k b i))) j)
      (0 + ∑ j' : Fin 2048, weights (scoreR c q k b i) (max ⊥ (rowMax (scoreR c q k b i))) j') * v b j e

end Cert.Attn

end
-- ==== Proof.KernelPayload.lean ====
/-
  The kernel's stored values, entry by entry, on the extended reals.

  The projection stores three [512, 1024] blocks, each  (x · W)(r, e) + β(e):
      pay(r, e) = (Σ_d x(r, d) · W(d, e)) + β(0, e).
  Changing the float format is the identity on the extended reals, a shape cast to the same shape is the identity,
  and the product into a zero accumulator is the plain sum over the shared axis.

  The attention block stores, for a [512, 1024] block of queries against 2048 keys and values,
      s_j = Σ_d (q(i, d) · c) · k(j, d),   M = max_j s_j (folded from -∞),   p_j = exp(s_j - M),
      pay(i, e) = (Σ_j p_j · v(j, e)) / (Σ_j p_j),
  with c the bf16 constant the kernel scales the queries by, kept as its bit pattern. The row maximum and the row sum
  are lane reductions of the score block, put back on the block through a unit column: [512] → [512, 1] → [512, n].
-/
import proofs.«148440_j18734647345730_2_alg».proof.Proof.Gen.KernelIdeal.Skeleton
import proofs.«148440_j18734647345730_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The projection block -/

/-- In the [512,1024] × [1024,1024] product, the left operand's free axis carries the output's first coordinate. -/
theorem projDot_lhs_free (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- In the [512,1024] × [1024,1024] product, the left operand's contracted axis carries the contraction coordinate. -/
theorem projDot_lhs_contr (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- In the [512,1024] × [1024,1024] product, the right operand's contracted axis carries the contraction coordinate. -/
theorem projDot_rhs_contr (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- In the [512,1024] × [1024,1024] product, the right operand's free axis carries the output's second coordinate. -/
theorem projDot_rhs_free (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512,1024] by [1024,1024] product into the zero splat, read at (r, e): the sum over the shared axis. -/
theorem matmul_proj_apply (a : FVec Ideal S512x1024 .bf16) (b : FVec Ideal S1024x1024 .bf16) (r : Fin 512) (e : Fin 1024) :
    matmul dot_S512x1024_S1024x1024_S512x1024_1_0_0_1_n_n none a b (constant (F := Ideal) S512x1024 .f32 0x00000000#32) (ix2 r e)
      = ∑ d : Fin 1024, a (ix2 r d) * b (ix2 d e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun ax => Fin.ext (by
    match ax with
    | ⟨0, _⟩ => exact projDot_lhs_free _ _
    | ⟨1, _⟩ => exact (projDot_lhs_contr _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun ax => Fin.ext (by
    match ax with
    | ⟨0, _⟩ => exact (projDot_rhs_contr _ _).trans hk
    | ⟨1, _⟩ => exact projDot_rhs_free _ _)
  rw [el, er]

/-- Stored block 2 of the projection at (r, e): the row of x contracted with the column of the weight, plus the bias. -/
theorem proj_pay2 (x0 : Vec Ideal S512x1024 .f32) (w : Vec Ideal S1024x1024 .bf16) (β : Vec Ideal S1x1024 .f32) (r : Fin 512) (e : Fin 1024) :
    k0_pay2 (F := Ideal) x0 w β (ix2 r e) = (∑ d : Fin 1024, x0 (ix2 r d) * w (ix2 d e)) + β (ix2 0 e) := by
  unfold k0_pay2 k0_pay1
  dsimp only
  rw [shapeCast_self, shapeCast_self, shapeCast_self]
  rw [truncf_apply, addf_apply, matmul_proj_apply, broadcastTo_1b_ab_apply]
  rfl

/-- Stored block 3 of the projection at (r, e): the row of x contracted with the column of the weight, plus the bias. -/
theorem proj_pay3 (x0 : Vec Ideal S512x1024 .f32) (w : Vec Ideal S1024x1024 .bf16) (β : Vec Ideal S1x1024 .f32) (r : Fin 512) (e : Fin 1024) :
    k0_pay3 (F := Ideal) x0 w β (ix2 r e) = (∑ d : Fin 1024, x0 (ix2 r d) * w (ix2 d e)) + β (ix2 0 e) := by
  unfold k0_pay3 k0_pay1
  dsimp only
  rw [shapeCast_self, shapeCast_self, shapeCast_self]
  rw [truncf_apply, addf_apply, matmul_proj_apply, broadcastTo_1b_ab_apply]
  rfl

/-- Stored block 4 of the projection at (r, e): the row of x contracted with the column of the weight, plus the bias. -/
theorem proj_pay4 (x0 : Vec Ideal S512x1024 .f32) (w : Vec Ideal S1024x1024 .bf16) (β : Vec Ideal S1x1024 .f32) (r : Fin 512) (e : Fin 1024) :
    k0_pay4 (F := Ideal) x0 w β (ix2 r e) = (∑ d : Fin 1024, x0 (ix2 r d) * w (ix2 d e)) + β (ix2 0 e) := by
  unfold k0_pay4 k0_pay1
  dsimp only
  rw [shapeCast_self, shapeCast_self, shapeCast_self]
  rw [truncf_apply, addf_apply, matmul_proj_apply, broadcastTo_1b_ab_apply]
  rfl

/-! ## Column forms: a reduced axis kept as a unit axis -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions of a [512, 2048] block -/

/-- The f32 pattern of minus infinity is the bottom of the extended reals. -/
theorem ofBits_neg_inf_f32 : Ideal.ofBits .f32 0xFF800000#32 = ⊥ := by simp [Ideal.ofBits, Ideal.ieee]

/-- Row i of the reduced block with lane j put back is the entry (i, j). -/
theorem lift_row (i : Fin 512) (j : Fin 2048) : reduces_S512x2048_S512.lift (ix1 i) j = ix2 i j :=
  funext fun a => Fin.ext (by match a with | ⟨0, _⟩ => rfl | ⟨1, _⟩ => rfl)

/-- The lane maximum from minus infinity, read at row i: the row's maximum folded from the bottom. -/
theorem laneMax_apply (s : FVec Ideal S512x2048 .f32) (i : Fin 512) :
    multiReduction (F := Ideal) .maximumf [1] S512 s 0xFF800000#32 reduces_S512x2048_S512 (.inl rfl) rfl (ix1 i)
      = Cert.Attn.rowMax (fun j => s (ix2 i j)) := by
  refine (Ideal.multiReduction_maximumf_single s 0xFF800000#32 reduces_S512x2048_S512 (.inl rfl) rfl (ix1 i)).trans ?_
  have e : (s ∘ reduces_S512x2048_S512.lift (ix1 i)) = fun j : Fin 2048 => s (ix2 i j) :=
    funext fun j => congrArg s (lift_row i j)
  show Finset.fold max (Ideal.ofBits .f32 0xFF800000#32) (s ∘ reduces_S512x2048_S512.lift (ix1 i)) (Finset.univ : Finset (Fin 2048)) = _
  rw [e, ofBits_neg_inf_f32]
  rfl

/-- The lane sum from zero, read at row i: the sum of the row. -/
theorem laneSum_apply (p : FVec Ideal S512x2048 .f32) (i : Fin 512) :
    multiReduction (F := Ideal) .add [1] S512 p 0x00000000#32 reduces_S512x2048_S512 (.inl rfl) rfl (ix1 i)
      = ∑ j : Fin 2048, p (ix2 i j) := by
  refine (Ideal.multiReduction_add_single p 0x00000000#32 reduces_S512x2048_S512 (.inl rfl) rfl (ix1 i)).trans ?_
  show ∑ j : Fin 2048, p (reduces_S512x2048_S512.lift (ix1 i) j) = _
  exact Finset.sum_congr rfl fun j _ => congrArg p (lift_row i j)

/-! ## The two products of the attention block -/

/-- In the [512,1024] × [2048,1024] (second axis against second axis) product, the left operand's free axis carries the output's first coordinate. -/
theorem qkDot_lhs_free (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
/-- In the [512,1024] × [2048,1024] (second axis against second axis) product, the left operand's contracted axis carries the contraction coordinate. -/
theorem qkDot_lhs_contr (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
/-- In the [512,1024] × [2048,1024] (second axis against second axis) product, the right operand's contracted axis carries the contraction coordinate. -/
theorem qkDot_rhs_contr (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q
/-- In the [512,1024] × [2048,1024] (second axis against second axis) product, the right operand's free axis carries the output's second coordinate. -/
theorem qkDot_rhs_free (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl

/-- A [512,1024] by [2048,1024] product contracting the second axis of both, into the zero splat, read at (i, j): row i against row j. -/
theorem matmul_qk_apply (a : FVec Ideal S512x1024 .bf16) (b : FVec Ideal S2048x1024 .bf16) (i : Fin 512) (j : Fin 2048) :
    matmul dot_S512x1024_S2048x1024_S512x2048_1_1_0_0_n_n none a b (constant (F := Ideal) S512x2048 .f32 0x00000000#32) (ix2 i j)
      = ∑ c : Fin 1024, a (ix2 i c) * b (ix2 j c) := by
  simp only [matmul]
  rw [Ideal.matmul_constant_zero_apply, ← Equiv.sum_comp (contrEquiv1 dot_S512x1024_S2048x1024_S512x2048_1_1_0_0_n_n 1024 rfl rfl).symm]
  refine Finset.sum_congr rfl fun c _ => ?_
  have hc := contrEquiv1_symm_val dot_S512x1024_S2048x1024_S512x2048_1_1_0_0_n_n 1024 rfl rfl c
  have el : dot_S512x1024_S2048x1024_S512x2048_1_1_0_0_n_n.lhsIdx (ix2 i j) ((contrEquiv1 dot_S512x1024_S2048x1024_S512x2048_1_1_0_0_n_n 1024 rfl rfl).symm c) = ix2 i c := funext fun ax => Fin.ext (by
    match ax with
    | ⟨0, _⟩ => exact qkDot_lhs_free _ _
    | ⟨1, _⟩ => exact (qkDot_lhs_contr _ _).trans hc)
  have er : dot_S512x1024_S2048x1024_S512x2048_1_1_0_0_n_n.rhsIdx (ix2 i j) ((contrEquiv1 dot_S512x1024_S2048x1024_S512x2048_1_1_0_0_n_n 1024 rfl rfl).symm c) = ix2 j c := funext fun ax => Fin.ext (by
    match ax with
    | ⟨0, _⟩ => exact qkDot_rhs_free _ _
    | ⟨1, _⟩ => exact (qkDot_rhs_contr _ _).trans hc)
  rw [el, er]

/-- In the [512,2048] × [2048,1024] product, the left operand's free axis carries the output's first coordinate. -/
theorem pvDot_lhs_free (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
/-- In the [512,2048] × [2048,1024] product, the left operand's contracted axis carries the contraction coordinate. -/
theorem pvDot_lhs_contr (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- In the [512,2048] × [2048,1024] product, the right operand's contracted axis carries the contraction coordinate. -/
theorem pvDot_rhs_contr (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- In the [512,2048] × [2048,1024] product, the right operand's free axis carries the output's second coordinate. -/
theorem pvDot_rhs_free (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- A [512,2048] by [2048,1024] product into the zero splat, read at (i, e): row i against column e. -/
theorem matmul_pv_apply (a : FVec Ideal S512x2048 .bf16) (b : FVec Ideal S2048x1024 .bf16) (i : Fin 512) (e : Fin 1024) :
    matmul dot_S512x2048_S2048x1024_S512x1024_1_0_0_1_n_n none a b (constant (F := Ideal) S512x1024 .f32 0x00000000#32) (ix2 i e)
      = ∑ c : Fin 2048, a (ix2 i c) * b (ix2 c e) := by
  simp only [matmul]
  rw [Ideal.matmul_constant_zero_apply, ← Equiv.sum_comp (contrEquiv1 dot_S512x2048_S2048x1024_S512x1024_1_0_0_1_n_n 2048 rfl rfl).symm]
  refine Finset.sum_congr rfl fun c _ => ?_
  have hc := contrEquiv1_symm_val dot_S512x2048_S2048x1024_S512x1024_1_0_0_1_n_n 2048 rfl rfl c
  have el : dot_S512x2048_S2048x1024_S512x1024_1_0_0_1_n_n.lhsIdx (ix2 i e) ((contrEquiv1 dot_S512x2048_S2048x1024_S512x1024_1_0_0_1_n_n 2048 rfl rfl).symm c) = ix2 i c := funext fun ax => Fin.ext (by
    match ax with
    | ⟨0, _⟩ => exact pvDot_lhs_free _ _
    | ⟨1, _⟩ => exact (pvDot_lhs_contr _ _).trans hc)
  have er : dot_S512x2048_S2048x1024_S512x1024_1_0_0_1_n_n.rhsIdx (ix2 i e) ((contrEquiv1 dot_S512x2048_S2048x1024_S512x1024_1_0_0_1_n_n 2048 rfl rfl).symm c) = ix2 c e := funext fun ax => Fin.ext (by
    match ax with
    | ⟨0, _⟩ => exact (pvDot_rhs_contr _ _).trans hc
    | ⟨1, _⟩ => exact pvDot_rhs_free _ _)
  rw [el, er]

/-! ## The attention block at one entry -/

/-- The exponential of a vector, read at an index. -/
theorem exp_apply {s : Shape} {φ : FTy} (a : FVec Ideal s φ) (i : s.Idx) : exp a i = Ideal.exp (a i) := rfl

/-- Scores of query row i: the scaled query row contracted with each key row. -/
def sc (q : Vec Ideal S1x512x1024 .bf16) (k : Vec Ideal S1x2048x1024 .bf16) (i : Fin 512) : Fin 2048 → EReal :=
  fun j => ∑ d : Fin 1024, (q (ix3 0 i d) * Ideal.ofBits .bf16 0x3D00#16) * k (ix3 0 j d)

/-- The score block: the query block scaled entrywise, times the key block transposed. -/
def sBlock (q : Vec Ideal S1x512x1024 .bf16) (k : Vec Ideal S1x2048x1024 .bf16) : FVec Ideal S512x2048 .f32 :=
  matmul dot_S512x1024_S2048x1024_S512x2048_1_1_0_0_n_n none
    (mulf (shapeCast S512x1024 q shapeCasts_S1x512x1024_S512x1024 : FVec Ideal S512x1024 .bf16) (broadcast S512x1024 (Scalar.ofBits (F := Ideal) .bf16 0x3D00#16)))
    (shapeCast S2048x1024 k shapeCasts_S1x2048x1024_S2048x1024 : FVec Ideal S2048x1024 .bf16) (constant (F := Ideal) S512x2048 .f32 0x00000000#32)

/-- The weight block of a score block: the exponential of each score less its row's maximum. -/
def pBlock (s : FVec Ideal S512x2048 .f32) : FVec Ideal S512x2048 .f32 :=
  exp (subf s (broadcastTo S512x2048
    (shapeCast S512x1 (multiReduction (F := Ideal) .maximumf [1] S512 s 0xFF800000#32 reduces_S512x2048_S512 (.inl rfl) rfl) shapeCasts_S512_S512x1)
    broadcasts_S512x1_S512x2048))

/-- The score block at (i, j) is the score of query row i against key row j. -/
theorem sBlock_apply (q : Vec Ideal S1x512x1024 .bf16) (k : Vec Ideal S1x2048x1024 .bf16) (i : Fin 512) (j : Fin 2048) :
    sBlock q k (ix2 i j) = sc q k i j := by
  unfold sBlock sc
  rw [matmul_qk_apply]
  refine Finset.sum_congr rfl fun d _ => ?_
  rw [mulf_apply, broadcast_apply, shapeCast_1ab_ab_apply, shapeCast_1ab_ab_apply]
  rfl

/-- The weight block at (i, j) is the exponential of the score less the maximum of row i. -/
theorem pBlock_apply (s : FVec Ideal S512x2048 .f32) (i : Fin 512) (j : Fin 2048) :
    pBlock s (ix2 i j) = Cert.Attn.weights (fun j' => s (ix2 i j')) (Cert.Attn.rowMax (fun j' => s (ix2 i j'))) j := by
  unfold pBlock Cert.Attn.weights
  rw [exp_apply, subf_apply, broadcastTo_a1_ab_apply, shapeCast_a_a1_apply, laneMax_apply]

/-- The stored block is the quotient of the weighted value product by the broadcast row sums of the weights. -/
theorem k1_pay1_eq (q : Vec Ideal S1x512x1024 .bf16) (k v : Vec Ideal S1x2048x1024 .bf16) :
    k1_pay1 (F := Ideal) q k v
      = shapeCast S1x512x1024
          (divf
            (matmul dot_S512x2048_S2048x1024_S512x1024_1_0_0_1_n_n none (truncf .bf16 (pBlock (sBlock q k)) bitsLt_bf16_f32)
              (shapeCast S2048x1024 v shapeCasts_S1x2048x1024_S2048x1024 : FVec Ideal S2048x1024 .bf16) (constant (F := Ideal) S512x1024 .f32 0x00000000#32))
            (broadcastTo S512x1024
              (shapeCast S512x1 (multiReduction (F := Ideal) .add [1] S512 (pBlock (sBlock q k)) 0x00000000#32 reduces_S512x2048_S512 (.inl rfl) rfl) shapeCasts_S512_S512x1)
              broadcasts_S512x1_S512x1024))
          shapeCasts_S512x1024_S1x512x1024 := rfl

/-- The attention block's stored entry (i, e): the weights of query row i against the value column e, over the sum of the weights. -/
theorem attn_pay (q : Vec Ideal S1x512x1024 .bf16) (k v : Vec Ideal S1x2048x1024 .bf16) (i : Fin 512) (e : Fin 1024) :
    k1_pay1 (F := Ideal) q k v (ix3 0 i e)
      = Ideal.div (∑ j : Fin 2048, Cert.Attn.weights (sc q k i) (Cert.Attn.rowMax (sc q k i)) j * v (ix3 0 j e))
                  (∑ j : Fin 2048, Cert.Attn.weights (sc q k i) (Cert.Attn.rowMax (sc q k i)) j) := by
  have hs : (fun j' => sBlock q k (ix2 i j')) = sc q k i := funext fun j' => sBlock_apply q k i j'
  have hp : ∀ j, pBlock (sBlock q k) (ix2 i j) = Cert.Attn.weights (sc q k i) (Cert.Attn.rowMax (sc q k i)) j := fun j => by
    rw [pBlock_apply, hs]
  rw [k1_pay1_eq, shapeCast_ab_1ab_apply, divf_apply, matmul_pv_apply, broadcastTo_a1_ab_apply, shapeCast_a_a1_apply, laneSum_apply]
  refine congrArg₂ Ideal.div (Finset.sum_congr rfl fun j _ => ?_) (Finset.sum_congr rfl fun j _ => hp j)
  rw [truncf_apply, hp, shapeCast_1ab_ab_apply]

end Cert.KernelIdeal.Payload

end
-- ==== Proof.ProjArrays.lean ====
/-
  The projection region: what its three output arrays hold when it ends.

  The region runs sixteen points; point t loads rows 512·t … 512·t+511 of the flattened input, the whole weight
  matrix and the bias row, and writes back, through each of three output windows, the block of those rows'
  projections (the contraction with the weight's columns plus the bias).  The sixteen blocks tile each output array,
  so each ends as ONE function of the arrays the region found: row R, column e holds Σ_d X(R,d)·W(d,e) + β(0,e).
-/
import proofs.«148440_j18734647345730_2_alg».proof.Proof.Gen.KernelIdeal.Frame
import proofs.«148440_j18734647345730_2_alg».proof.Proof.AttnSpec
import proofs.«148440_j18734647345730_2_alg».proof.Proof.KernelPayload
import Idealize.ShloMosaic.Lib.Pipeline.Value
import Idealize.ShloMosaic.Lib.ValueIdx
import Idealize.ShloMosaic.PureOps.Ideal.Laws

set_option maxRecDepth 16384

noncomputable section

namespace Cert.KernelIdeal.Arrays

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

/-- The rows' projection over the flattened batch: entry (R, e) is the contraction of row R of X with column e of W,
    plus the bias row's entry e. -/
def rowsProj (X : S8192x1024.Idx → EReal) (W : S1024x1024.Idx → EReal) (β : S1x1024.Idx → EReal) : S8192x1024.Idx → EReal :=
  fun i => (∑ d : Fin 1024, X (ix2 (⟨(i 0).val, idx2_lt0 i⟩ : Fin 8192) d) * W (ix2 d (⟨(i 1).val, idx2_lt1 i⟩ : Fin 1024)))
    + β (ix2 (0 : Fin 1) (⟨(i 1).val, idx2_lt1 i⟩ : Fin 1024))

theorem hz2 : (![0, 0] : Fin 2 → Nat) = fun _ => 0 := funext fun a => by fin_cases a <;> rfl

/-- The printed index maps of the projection region, decided over its sixteen points: the row windows (the input rows and
    the three outputs) sit at block (t, 0); the weight and bias windows at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Every block row of the sixteen is some point's. -/
theorem idx_onto0 : ∀ q0 : Fin 16, ∃ t : Fin cfg0.N, t.val = q0.val :=
  (by decide +kernel : ∀ q0 : Fin 16, ∃ t : Fin grid0.N, t.val = q0.val)

variable (V : (c : Dev nD) → (b : Ref sig .tc) → Buf (Elt Ideal) ((c : Thread nD τ).loc b))

/-! ## Output window 7 -/

/-- What point t writes back through window 7 is block t of the rows' projection of the arrays the region finds. -/
theorem flushed7_eq (c : Dev nD) (t : Fin cfg0.N) :
    (dat0 V c).flushed 7 t = ((cfg0.win 7).blk t).view.read (Elt Ideal) (rowsProj (V c main_v0) (V c main_v1) (V c main_v4)) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S1024x1024) hz2, View.ld_unit_zero (S := S1x1024) hz2]
  obtain ⟨e00, e01, e10, e11, e20, e21, e30, e31, e40, e41, e50, e51, e60, e61, e70, e71, e80, e81, e90, e91⟩ := idx_facts0 t
  funext y
  obtain ⟨r, e, rfl⟩ : ∃ (r : Fin 512) (e : Fin 1024), y = ix2 r e := ⟨y 0, y 1, eq_ix2 y⟩
  refine (proj_pay2 (iblk0 V c 0 t) (iblk0 V c 1 t) (iblk0 V c 2 t) r e).trans ?_
  show _ = rowsProj (V c main_v0) (V c main_v1) (V c main_v4) (((cfg0.win 7).blk t).view.emb (ix2 r e))
  unfold rowsProj
  refine congrArg₂ (· + ·) (Finset.sum_congr rfl fun d _ => congrArg₂ (· * ·) ?_ ?_) ?_
  · show V c main_v0 (((cfg0.win 0).blk t).view.emb (ix2 r d)) = V c main_v0 _
    refine congrArg (V c main_v0) (funext fun a => Fin.ext ?_)
    match a with
    | ⟨0, _⟩ => show win0_0.index t (0 : Fin 2) * 512 + 1 * r.val = win0_7.index t (0 : Fin 2) * 512 + 1 * r.val; omega
    | ⟨1, _⟩ => show win0_0.index t (1 : Fin 2) * 1024 + 1 * d.val = d.val; omega
  · show V c main_v1 (((cfg0.win 1).blk t).view.emb (ix2 d e)) = V c main_v1 _
    refine congrArg (V c main_v1) (funext fun a => Fin.ext ?_)
    match a with
    | ⟨0, _⟩ => show win0_1.index t (0 : Fin 2) * 1024 + 1 * d.val = d.val; omega
    | ⟨1, _⟩ => show win0_1.index t (1 : Fin 2) * 1024 + 1 * e.val = win0_7.index t (1 : Fin 2) * 1024 + 1 * e.val; omega
  · show V c main_v4 (((cfg0.win 2).blk t).view.emb (ix2 (0 : Fin 1) e)) = V c main_v4 _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 1024 + 1 * e.val = win0_7.index t (1 : Fin 2) * 1024 + 1 * e.val; omega

/-- An index of the array lies in point t's block of window 7 iff each coordinate lies in the block's range. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v7_0).slice (win0_7.rect t)).set ↔ _
  rw [View.set_slice_whole, Rect.mem_set_unit]
  exact Iff.rfl

/-- Every row of the array is in the block of the point that owns it: row R belongs to point R / 512. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := idx_onto0 ⟨(i 0).val / 512, by omega⟩
  obtain ⟨e00, e01, e10, e11, e20, e21, e30, e31, e40, e41, e50, e51, e60, e61, e70, e71, e80, e81, e90, e91⟩ := idx_facts0 t
  have q0 : t.val = (i 0).val / 512 := ht
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- After the region, window 7's array is the rows' projection of the arrays the region found. -/
theorem final7 (c : Dev nD) : (dat0 V c).arrAt 7 cfg0.N = rowsProj (V c main_v0) (V c main_v1) (V c main_v4) :=
  (dat0 V c).arrAt_eq_of_cover 7 _ (fun t _ => flushed7_eq V c t) cover7

/-! ## Output window 8 -/

/-- What point t writes back through window 8 is block t of the rows' projection of the arrays the region finds. -/
theorem flushed8_eq (c : Dev nD) (t : Fin cfg0.N) :
    (dat0 V c).flushed 8 t = ((cfg0.win 8).blk t).view.read (Elt Ideal) (rowsProj (V c main_v0) (V c main_v2) (V c main_v5)) := by
  show (cfg0.win 8).cut (grid0.coords t) ((dat0 V c).after 8 t) = _
  rw [after0_8]
  unfold out0_8
  rw [View.canon_unit_zero hz2]
  simp only [View.ld_unit_zero (S := S512x1024) hz2, View.ld_unit_zero (S := S1024x1024) hz2, View.ld_unit_zero (S := S1x1024) hz2]
  obtain ⟨e00, e01, e10, e11, e20, e21, e30, e31, e40, e41, e50, e51, e60, e61, e70, e71, e80, e81, e90, e91⟩ := idx_facts0 t
  funext y
  obtain ⟨r, e, rfl⟩ : ∃ (r : Fin 512) (e : Fin 1024), y = ix2 r e := ⟨y 0, y 1, eq_ix2 y⟩
  refine (proj_pay3 (iblk0 V c 0 t) (iblk0 V c 3 t) (iblk0 V c 4 t) r e).trans ?_
  show _ = rowsProj (V c main_v0) (V c main_v2) (V c main_v5) (((cfg0.win 8).blk t).view.emb (ix2 r e))
  unfold rowsProj
  refine congrArg₂ (· + ·) (Finset.sum_congr rfl fun d _ => congrArg₂ (· * ·) ?_ ?_) ?_
  · show V c main_v0 (((cfg0.win 0).blk t).view.emb (ix2 r d)) = V c main_v0 _
    refine congrArg (V c main_v0) (funext fun a => Fin.ext ?_)
    match a with
    | ⟨0, _⟩ => show win0_0.index t (0 : Fin 2) * 512 + 1 * r.val = win0_8.index t (0 : Fin 2) * 512 + 1 * r.val; omega
    | ⟨1, _⟩ => show win0_0.index t (1 : Fin 2) * 1024 + 1 * d.val = d.val; omega
  · show V c main_v2 (((cfg0.win 3).blk t).view.emb (ix2 d e)) = V c main_v2 _
    refine congrArg (V c main_v2) (funext fun a => Fin.ext ?_)
    match a with
    | ⟨0, _⟩ => show win0_3.index t (0 : Fin 2) * 1024 + 1 * d.val = d.val; omega
    | ⟨1, _⟩ => show win0_3.index t (1 : Fin 2) * 1024 + 1 * e.val = win0_8.index t (1 : Fin 2) * 1024 + 1 * e.val; omega
  · show V c main_v5 (((cfg0.win 4).blk t).view.emb (ix2 (0 : Fin 1) e)) = V c main_v5 _
    refine congrArg (V c main_v5) (funext fun a => Fin.ext ?_)
    match a with
    | ⟨0, _⟩ => show win0_4.index t (0 : Fin 2) * 1 + 1 * 0 = 0; omega
    | ⟨1, _⟩ => show win0_4.index t (1 : Fin 2) * 1024 + 1 * e.val = win0_8.index t (1 : Fin 2) * 1024 + 1 * e.val; omega

/-- An index of the array lies in point t's block of window 8 iff each coordinate lies in the block's range. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v7_1).slice (win0_8.rect t)).set ↔ _
  rw [View.set_slice_whole, Rect.mem_set_unit]
  exact Iff.rfl

/-- Every row of the array is in the block of the point that owns it: row R belongs to point R / 512. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ := idx_onto0 ⟨(i 0).val / 512, by omega⟩
  obtain ⟨e00, e01, e10, e11, e20, e21, e30, e31, e40, e41, e50, e51, e60, e61, e70, e71, e80, e81, e90, e91⟩ := idx_facts0 t
  have q0 : t.val = (i 0).val / 512 := ht
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- After the region, window 8's array is the rows' projection of the arrays the region found. -/
theorem final8 (c : Dev nD) : (dat0 V c).arrAt 8 cfg0.N = rowsProj (V c main_v0) (V c main_v2) (V c main_v5) :=
  (dat0 V c).arrAt_eq_of_cover 8 _ (fun t _ => flushed8_eq V c t) cover8

/-! ## Output window 9 -/

/-- What point t writes back through window 9 is block t of the rows' projection of the arrays the region finds. -/
theorem flushed9_eq (c : Dev nD) (t : Fin cfg0.N) :
    (dat0 V c).flushed 9 t = ((cfg0.win 9).blk t).view.read (Elt Ideal) (rowsProj (V c main_v0) (V c main_v3) (V c main_v6)) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S1024x1024) hz2, View.ld_unit_zero (S := S1x1024) hz2]
  obtain ⟨e00, e01, e10, e11, e20, e21, e30, e31, e40, e41, e50, e51, e60, e61, e70, e71, e80, e81, e90, e91⟩ := idx_facts0 t
  funext y
  obtain ⟨r, e, rfl⟩ : ∃ (r : Fin 512) (e : Fin 1024), y = ix2 r e := ⟨y 0, y 1, eq_ix2 y⟩
  refine (proj_pay4 (iblk0 V c 0 t) (iblk0 V c 5 t) (iblk0 V c 6 t) r e).trans ?_
  show _ = rowsProj (V c main_v0) (V c main_v3) (V c main_v6) (((cfg0.win 9).blk t).view.emb (ix2 r e))
  unfold rowsProj
  refine congrArg₂ (· + ·) (Finset.sum_congr rfl fun d _ => congrArg₂ (· * ·) ?_ ?_) ?_
  · show V c main_v0 (((cfg0.win 0).blk t).view.emb (ix2 r d)) = V c main_v0 _
    refine congrArg (V c main_v0) (funext fun a => Fin.ext ?_)
    match a with
    | ⟨0, _⟩ => show win0_0.index t (0 : Fin 2) * 512 + 1 * r.val = win0_9.index t (0 : Fin 2) * 512 + 1 * r.val; omega
    | ⟨1, _⟩ => show win0_0.index t (1 : Fin 2) * 1024 + 1 * d.val = d.val; omega
  · show V c main_v3 (((cfg0.win 5).blk t).view.emb (ix2 d e)) = V c main_v3 _
    refine congrArg (V c main_v3) (funext fun a => Fin.ext ?_)
    match a with
    | ⟨0, _⟩ => show win0_5.index t (0 : Fin 2) * 1024 + 1 * d.val = d.val; omega
    | ⟨1, _⟩ => show win0_5.index t (1 : Fin 2) * 1024 + 1 * e.val = win0_9.index t (1 : Fin 2) * 1024 + 1 * e.val; omega
  · show V c main_v6 (((cfg0.win 6).blk t).view.emb (ix2 (0 : Fin 1) e)) = V c main_v6 _
    refine congrArg (V c main_v6) (funext fun a => Fin.ext ?_)
    match a with
    | ⟨0, _⟩ => show win0_6.index t (0 : Fin 2) * 1 + 1 * 0 = 0; omega
    | ⟨1, _⟩ => show win0_6.index t (1 : Fin 2) * 1024 + 1 * e.val = win0_9.index t (1 : Fin 2) * 1024 + 1 * e.val; omega

/-- An index of the array lies in point t's block of window 9 iff each coordinate lies in the block's range. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v7_2).slice (win0_9.rect t)).set ↔ _
  rw [View.set_slice_whole, Rect.mem_set_unit]
  exact Iff.rfl

/-- Every row of the array is in the block of the point that owns it: row R belongs to point R / 512. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ := idx_onto0 ⟨(i 0).val / 512, by omega⟩
  obtain ⟨e00, e01, e10, e11, e20, e21, e30, e31, e40, e41, e50, e51, e60, e61, e70, e71, e80, e81, e90, e91⟩ := idx_facts0 t
  have q0 : t.val = (i 0).val / 512 := ht
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- After the region, window 9's array is the rows' projection of the arrays the region found. -/
theorem final9 (c : Dev nD) : (dat0 V c).arrAt 9 cfg0.N = rowsProj (V c main_v0) (V c main_v3) (V c main_v6) :=
  (dat0 V c).arrAt_eq_of_cover 9 _ (fun t _ => flushed9_eq V c t) cover9

end Cert.KernelIdeal.Arrays

end
-- ==== Proof.AttnArrays.lean ====
/-
  The attention region: what its output array holds when it ends.

  The region runs a 4 × 4 grid; point (b, t) loads rows 512·t … 512·t+511 of batch b of the queries and ALL 2048 rows of
  batch b of the keys and of the values, and writes back the block of those query rows' attention outputs: scores with
  the scale folded into the query, the row maximum, the exponentials, their sum, the weighted sum of value rows, the
  quotient.  The sixteen blocks tile the output array, so it ends as ONE function of the three arrays the region
  found: entry (b, i, e) is the first arrangement of the specification at query (b, i), column e.
-/
import proofs.«148440_j18734647345730_2_alg».proof.Proof.Gen.KernelIdeal.Frame
import proofs.«148440_j18734647345730_2_alg».proof.Proof.AttnSpec
import proofs.«148440_j18734647345730_2_alg».proof.Proof.KernelPayload
import Idealize.ShloMosaic.Lib.Pipeline.Value
import Idealize.ShloMosaic.Lib.ValueIdx
import Idealize.ShloMosaic.PureOps.Ideal.Laws

set_option maxRecDepth 16384

noncomputable section

namespace Cert.KernelIdeal.Arrays

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

/-- A 4 × 2048 × 1024 array by coordinates. -/
def rows (A : S4x2048x1024.Idx → EReal) : Cert.Attn.Rows := fun b s e => A (ix3 b s e)

/-- The attention output over whole arrays: entry (b, i, e) from the query, key and value arrays. -/
def attnG (Q K Vv : S4x2048x1024.Idx → EReal) : S4x2048x1024.Idx → EReal :=
  fun i => Cert.Attn.outK (Ideal.ofBits .bf16 0x3D00#16) (rows Q) (rows K) (rows Vv)
    (⟨(i 0).val, (i 0).isLt⟩ : Fin 4) (⟨(i 1).val, (i 1).isLt⟩ : Fin 2048) (⟨(i 2).val, (i 2).isLt⟩ : Fin 1024)

theorem hz3 : (![0, 0, 0] : Fin 3 → Nat) = fun _ => 0 := funext fun a => by fin_cases a <;> rfl

/-- The printed index maps of the attention region, decided over its sixteen points: the query window moves with the
    output window; the key and value windows sit at the output's batch, block (·, 0, 0); the output's batch and row-block
    indices stay below 4. -/
theorem idx_facts1 : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 3 ∧ win1_3.index t (2 : Fin 3) = 0 :=
  (by decide +kernel : ∀ t : Fin grid1.N, _)

/-- Every (batch, row-block) pair is some point's. -/
theorem idx_onto1 : ∀ (q0 q1 : Fin 4), ∃ t : Fin cfg1.N, win1_3.index t (0 : Fin 3) = q0.val ∧ win1_3.index t (1 : Fin 3) = q1.val :=
  (by decide +kernel : ∀ (q0 q1 : Fin 4), ∃ t : Fin grid1.N, win1_3.index t (0 : Fin 3) = q0.val ∧ win1_3.index t (1 : Fin 3) = q1.val)

variable (V : (c : Dev nD) → (b : Ref sig .tc) → Buf (Elt Ideal) ((c : Thread nD τ).loc b))

/-- What point t writes back is block t of the attention output of the arrays the region finds. -/
theorem flushed3_eq (c : Dev nD) (t : Fin cfg1.N) :
    (dat1 V c).flushed 3 t = ((cfg1.win 3).blk t).view.read (Elt Ideal) (attnG (V c main_v8) (V c main_v9) (V c main_v10)) := by
  show (cfg1.win 3).cut (grid1.coords t) ((dat1 V c).after 3 t) = _
  rw [after1_3]
  unfold out1_3
  rw [View.canon_unit_zero hz3]
  simp only [View.ld_unit_zero (S := S1x512x1024) hz3, View.ld_unit_zero (S := S1x2048x1024) hz3]
  obtain ⟨e00, e01, e02, e10, e11, e12, e20, e21, e22, e30, e31, e32⟩ := idx_facts1 t
  funext y
  obtain ⟨u, i, e, rfl⟩ : ∃ (u : Fin 1) (i : Fin 512) (e : Fin 1024), y = ix3 u i e := ⟨y 0, y 1, y 2, eq_ix3 y⟩
  obtain rfl : u = 0 := Subsingleton.elim _ _
  refine (attn_pay (iblk1 V c 0 t) (iblk1 V c 1 t) (iblk1 V c 2 t) i e).trans ?_
  show _ = attnG (V c main_v8) (V c main_v9) (V c main_v10) (((cfg1.win 3).blk t).view.emb (ix3 (0 : Fin 1) i e))
  unfold attnG Cert.Attn.outK
  have hs : sc (iblk1 V c 0 t) (iblk1 V c 1 t) i
      = Cert.Attn.scoreK (Ideal.ofBits .bf16 0x3D00#16) (rows (V c main_v8)) (rows (V c main_v9))
          (⟨((((cfg1.win 3).blk t).view.emb (ix3 (0 : Fin 1) i e)) 0).val, ((((cfg1.win 3).blk t).view.emb (ix3 (0 : Fin 1) i e)) 0).isLt⟩ : Fin 4)
          (⟨((((cfg1.win 3).blk t).view.emb (ix3 (0 : Fin 1) i e)) 1).val, ((((cfg1.win 3).blk t).view.emb (ix3 (0 : Fin 1) i e)) 1).isLt⟩ : Fin 2048) := by
    funext j
    unfold sc Cert.Attn.scoreK rows
    refine Finset.sum_congr rfl fun d _ => congrArg₂ (· * ·) (congrArg (· * _) ?_) ?_
    · show V c main_v8 (((cfg1.win 0).blk t).view.emb (ix3 (0 : Fin 1) i d)) = V c main_v8 _
      refine congrArg (V c main_v8) (funext fun a => Fin.ext ?_)
      match a with
      | ⟨0, _⟩ => show win1_0.index t (0 : Fin 3) * 1 + 1 * 0 = win1_3.index t (0 : Fin 3) * 1 + 1 * 0; omega
      | ⟨1, _⟩ => show win1_0.index t (1 : Fin 3) * 512 + 1 * i.val = win1_3.index t (1 : Fin 3) * 512 + 1 * i.val; omega
      | ⟨2, _⟩ => show win1_0.index t (2 : Fin 3) * 1024 + 1 * d.val = d.val; omega
    · show V c main_v9 (((cfg1.win 1).blk t).view.emb (ix3 (0 : Fin 1) j d)) = V c main_v9 _
      refine congrArg (V c main_v9) (funext fun a => Fin.ext ?_)
      match a with
      | ⟨0, _⟩ => show win1_1.index t (0 : Fin 3) * 1 + 1 * 0 = win1_3.index t (0 : Fin 3) * 1 + 1 * 0; omega
      | ⟨1, _⟩ => show win1_1.index t (1 : Fin 3) * 2048 + 1 * j.val = j.val; omega
      | ⟨2, _⟩ => show win1_1.index t (2 : Fin 3) * 1024 + 1 * d.val = d.val; omega
  rw [hs]
  refine congrArg₂ Ideal.div (Finset.sum_congr rfl fun j _ => congrArg₂ (· * ·) rfl ?_) rfl
  unfold rows
  show V c main_v10 (((cfg1.win 2).blk t).view.emb (ix3 (0 : Fin 1) j e)) = V c main_v10 _
  refine congrArg (V c main_v10) (funext fun a => Fin.ext ?_)
  match a with
  | ⟨0, _⟩ => show win1_2.index t (0 : Fin 3) * 1 + 1 * 0 = win1_3.index t (0 : Fin 3) * 1 + 1 * 0; omega
  | ⟨1, _⟩ => show win1_2.index t (1 : Fin 3) * 2048 + 1 * j.val = j.val; omega
  | ⟨2, _⟩ => show win1_2.index t (2 : Fin 3) * 1024 + 1 * e.val = win1_3.index t (2 : Fin 3) * 1024 + 1 * e.val; omega

/-- An index of the array lies in point t's block iff each coordinate lies in the block's range. -/
theorem mem_blk3 (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v11).slice (win1_3.rect t)).set ↔ _
  rw [View.set_slice_whole, Rect.mem_set_unit]
  exact Iff.rfl

/-- Every entry is in the block of the point that owns it: batch b, row s belongs to point (b, s / 512). -/
theorem cover3 (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, q0, q1⟩ := idx_onto1 ⟨(i 0).val, hi0⟩ ⟨(i 1).val / 512, by omega⟩
  obtain ⟨e00, e01, e02, e10, e11, e12, e20, e21, e22, e30, e31, e32⟩ := idx_facts1 t
  have q0' : win1_3.index t (0 : Fin 3) = (i 0).val := q0
  have q1' : win1_3.index t (1 : Fin 3) = (i 1).val / 512 := q1
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- After the region, the output array is the attention output of the arrays the region found. -/
theorem final3 (c : Dev nD) : (dat1 V c).arrAt 3 cfg1.N = attnG (V c main_v8) (V c main_v9) (V c main_v10) :=
  (dat1 V c).arrAt_eq_of_cover 3 _ (fun t _ => flushed3_eq V c t) cover3

end Cert.KernelIdeal.Arrays

end
-- ==== Proof.HostGlue.lean ====
/-
  What the two kernel regions find in their input arrays, entry by entry.

  Before the first region the host flattens the activations [4, 2048, 1024] to [8192, 1024], narrows the three
  weight matrices (no change of value on the extended reals) and gives each bias [1024] a leading unit axis;
  between the regions it unflattens the three projections [8192, 1024] back to [4, 2048, 1024].  A reshape
  keeps every entry's row-major position: row R of the flattened array is batch R / 2048, position R % 2048,
  and entry (b, s) of the unflattened array is row b·2048 + s.
-/
import proofs.«148440_j18734647345730_2_alg».proof.Proof.Gen.KernelIdeal.Frame
import proofs.«148440_j18734647345730_2_alg».proof.Proof.AttnSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe
  Idealize.ShloMosaic.ValueIdx Idealize.SL.Sem Idealize.ShloMosaic.StableHlo

variable (m : (ℓ : Loc nD τ sig) → Buf (Elt Ideal) ℓ) (ρ : Dev nD → PrngReg)

/-! ### Two reshapes read at an index -/

/-- Rows flattened: entry (R, d) of the [a·n, w] array is entry (R / n, R % n, d) of the [a, n, w] array. -/
theorem shapeCast_flatten_apply {α : Type} {a n w : ℕ} (x : (⟨3, ![a, n, w]⟩ : Shape).Idx → α)
    (h : (⟨3, ![a, n, w]⟩ : Shape).ShapeCasts ⟨2, ![a * n, w]⟩) (R : Fin (a * n)) (d : Fin w)
    (hq : R.val / n < a) (hr : R.val % n < n) :
    shapeCast ⟨2, ![a * n, w]⟩ x h (ix2 R d) = x (ix3 (⟨R.val / n, hq⟩ : Fin a) (⟨R.val % n, hr⟩ : Fin n) d) :=
  shapeCast_apply x h _ _ (by
    rw [Shape.rowMajor_val_three, Shape.rowMajor_val_two]
    show (R.val / n * n + R.val % n) * w + d.val = R.val * w + d.val
    rw [Nat.div_add_mod'])

/-- Rows unflattened: entry (b, s, e) of the [a, n, w] array is entry (b·n + s, e) of the [a·n, w] array. -/
theorem shapeCast_unflatten_apply {α : Type} {a n w : ℕ} (x : (⟨2, ![a * n, w]⟩ : Shape).Idx → α)
    (h : (⟨2, ![a * n, w]⟩ : Shape).ShapeCasts ⟨3, ![a, n, w]⟩) (b : Fin a) (s : Fin n) (e : Fin w)
    (hR : b.val * n + s.val < a * n) :
    shapeCast ⟨3, ![a, n, w]⟩ x h (ix3 b s e) = x (ix2 (⟨b.val * n + s.val, hR⟩ : Fin (a * n)) e) :=
  shapeCast_apply x h _ _ (by
    rw [Shape.rowMajor_val_three, Shape.rowMajor_val_two]
    rfl)

/-! ### The arrays at the first region's entry, as terms over the launch arrays -/

theorem V1_x_term (c : Dev nD) : (V1 m ρ c main_v0 : S8192x1024.Idx → EReal)
    = shapeCast S8192x1024 (m ((c : Thread nD τ).loc main_arg0)) shapeCasts_S4x2048x1024_S8192x1024 := by
  dsimp only [V1, W1, hostOps0]; after_results; rfl

theorem V1_wq_term (c : Dev nD) : (V1 m ρ c main_v1 : S1024x1024.Idx → EReal)
    = fun i => (m ((c : Thread nD τ).loc main_arg1) : S1024x1024.Idx → EReal) i := by
  dsimp only [V1, W1, hostOps0]; after_results; rfl

theorem V1_wk_term (c : Dev nD) : (V1 m ρ c main_v2 : S1024x1024.Idx → EReal)
    = fun i => (m ((c : Thread nD τ).loc main_arg3) : S1024x1024.Idx → EReal) i := by
  dsimp only [V1, W1, hostOps0]; after_results; rfl

theorem V1_wv_term (c : Dev nD) : (V1 m ρ c main_v3 : S1024x1024.Idx → EReal)
    = fun i => (m ((c : Thread nD τ).loc main_arg5) : S1024x1024.Idx → EReal) i := by
  dsimp only [V1, W1, hostOps0]; after_results; rfl

theorem V1_bq_term (c : Dev nD) : (V1 m ρ c main_v4 : S1x1024.Idx → EReal)
    = shapeCast S1x1024 (m ((c : Thread nD τ).loc main_arg2)) shapeCasts_S1024_S1x1024 := by
  dsimp only [V1, W1, hostOps0]; after_results; rfl

theorem V1_bk_term (c : Dev nD) : (V1 m ρ c main_v5 : S1x1024.Idx → EReal)
    = shapeCast S1x1024 (m ((c : Thread nD τ).loc main_arg4)) shapeCasts_S1024_S1x1024 := by
  dsimp only [V1, W1, hostOps0]; after_results; rfl

theorem V1_bv_term (c : Dev nD) : (V1 m ρ c main_v6 : S1x1024.Idx → EReal)
    = shapeCast S1x1024 (m ((c : Thread nD τ).loc main_arg6)) shapeCasts_S1024_S1x1024 := by
  dsimp only [V1, W1, hostOps0]; after_results; rfl

/-! ### The arrays at the second region's entry, as terms over the first region's outputs -/

theorem V3_q_term (c : Dev nD) : (V3 m ρ c main_v8 : S4x2048x1024.Idx → EReal)
    = shapeCast S4x2048x1024 (W2 m ρ c (Proc.devRef .tc main_v7_0)) shapeCasts_S8192x1024_S4x2048x1024 := by
  dsimp only [V3, W3, hostOps1]; after_results; rfl

theorem V3_k_term (c : Dev nD) : (V3 m ρ c main_v9 : S4x2048x1024.Idx → EReal)
    = shapeCast S4x2048x1024 (W2 m ρ c (Proc.devRef .tc main_v7_1)) shapeCasts_S8192x1024_S4x2048x1024 := by
  dsimp only [V3, W3, hostOps1]; after_results; rfl

theorem V3_v_term (c : Dev nD) : (V3 m ρ c main_v10 : S4x2048x1024.Idx → EReal)
    = shapeCast S4x2048x1024 (W2 m ρ c (Proc.devRef .tc main_v7_2)) shapeCasts_S8192x1024_S4x2048x1024 := by
  dsimp only [V3, W3, hostOps1]; after_results; rfl

/-! ### The first region's inputs at an index -/

/-- Row R of the flattened activations is batch R / 2048, position R % 2048. -/
theorem entry_x (c : Dev nD) (R : Fin 8192) (d : Fin 1024) :
    (V1 m ρ c main_v0 : S8192x1024.Idx → EReal) (ix2 R d)
      = (m ((c : Thread nD τ).loc main_arg0) : S4x2048x1024.Idx → EReal)
          (ix3 (⟨R.val / 2048, by have := R.isLt; omega⟩ : Fin 4) (⟨R.val % 2048, by omega⟩ : Fin 2048) d) := by
  rw [V1_x_term]
  exact shapeCast_flatten_apply (a := 4) (n := 2048) (w := 1024) _ _ R d _ _

/-- The narrowed weight matrices hold the launch matrices' values. -/
theorem entry_wq (c : Dev nD) (i : S1024x1024.Idx) :
    (V1 m ρ c main_v1 : S1024x1024.Idx → EReal) i = (m ((c : Thread nD τ).loc main_arg1) : S1024x1024.Idx → EReal) i := by
  rw [V1_wq_term]

theorem entry_wk (c : Dev nD) (i : S1024x1024.Idx) :
    (V1 m ρ c main_v2 : S1024x1024.Idx → EReal) i = (m ((c : Thread nD τ).loc main_arg3) : S1024x1024.Idx → EReal) i := by
  rw [V1_wk_term]

theorem entry_wv (c : Dev nD) (i : S1024x1024.Idx) :
    (V1 m ρ c main_v3 : S1024x1024.Idx → EReal) i = (m ((c : Thread nD τ).loc main_arg5) : S1024x1024.Idx → EReal) i := by
  rw [V1_wv_term]

/-- A bias with a leading unit axis reads, at (0, e), the bias at e. -/
theorem entry_bq (c : Dev nD) (e : Fin 1024) :
    (V1 m ρ c main_v4 : S1x1024.Idx → EReal) (ix2 (0 : Fin 1) e)
      = (m ((c : Thread nD τ).loc main_arg2) : S1024.Idx → EReal) (ix1 e) := by
  rw [V1_bq_term]
  exact shapeCast_a_1a_apply _ _ _ e

theorem entry_bk (c : Dev nD) (e : Fin 1024) :
    (V1 m ρ c main_v5 : S1x1024.Idx → EReal) (ix2 (0 : Fin 1) e)
      = (m ((c : Thread nD τ).loc main_arg4) : S1024.Idx → EReal) (ix1 e) := by
  rw [V1_bk_term]
  exact shapeCast_a_1a_apply _ _ _ e

theorem entry_bv (c : Dev nD) (e : Fin 1024) :
    (V1 m ρ c main_v6 : S1x1024.Idx → EReal) (ix2 (0 : Fin 1) e)
      = (m ((c : Thread nD τ).loc main_arg6) : S1024.Idx → EReal) (ix1 e) := by
  rw [V1_bv_term]
  exact shapeCast_a_1a_apply _ _ _ e

/-! ### The second region's inputs at an index -/

/-- Entry (b, s) of an unflattened projection is row b·2048 + s of the first region's output. -/
theorem entry_q (c : Dev nD) (b : Fin 4) (s : Fin 2048) (e : Fin 1024) :
    (V3 m ρ c main_v8 : S4x2048x1024.Idx → EReal) (ix3 b s e)
      = (W2 m ρ c (Proc.devRef .tc main_v7_0) : S8192x1024.Idx → EReal)
          (ix2 (⟨b.val * 2048 + s.val, by have := b.isLt; have := s.isLt; omega⟩ : Fin 8192) e) := by
  rw [V3_q_term]
  exact shapeCast_unflatten_apply (a := 4) (n := 2048) (w := 1024) _ _ b s e _

theorem entry_k (c : Dev nD) (b : Fin 4) (s : Fin 2048) (e : Fin 1024) :
    (V3 m ρ c main_v9 : S4x2048x1024.Idx → EReal) (ix3 b s e)
      = (W2 m ρ c (Proc.devRef .tc main_v7_1) : S8192x1024.Idx → EReal)
          (ix2 (⟨b.val * 2048 + s.val, by have := b.isLt; have := s.isLt; omega⟩ : Fin 8192) e) := by
  rw [V3_k_term]
  exact shapeCast_unflatten_apply (a := 4) (n := 2048) (w := 1024) _ _ b s e _

theorem entry_v (c : Dev nD) (b : Fin 4) (s : Fin 2048) (e : Fin 1024) :
    (V3 m ρ c main_v10 : S4x2048x1024.Idx → EReal) (ix3 b s e)
      = (W2 m ρ c (Proc.devRef .tc main_v7_2) : S8192x1024.Idx → EReal)
          (ix2 (⟨b.val * 2048 + s.val, by have := b.isLt; have := s.isLt; omega⟩ : Fin 8192) e) := by
  rw [V3_v_term]
  exact shapeCast_unflatten_apply (a := 4) (n := 2048) (w := 1024) _ _ b s e _

end Cert.KernelIdeal.Glue

end
-- ==== Proof.KernelValue.lean ====
/-
  The idealized kernel's result, index by index, as a function of the seven argument arrays.

  The host reshapes the input to 8192 rows, narrows the three weight matrices (the identity on extended reals) and
  turns each bias into a one-row matrix; the projection region leaves three arrays of row projections; the host
  reshapes them back to 4 × 2048 × 1024 (row R of the flat array is batch R / 2048, position R % 2048); the attention
  region leaves the output.  Composing the two regions' whole-array functions through the reshapes: the result at
  (b, i, e) is the specification's first arrangement of the three projections of the input, at scale 2⁻⁵.
-/
import proofs.«148440_j18734647345730_2_alg».proof.Proof.ProjArrays
import proofs.«148440_j18734647345730_2_alg».proof.Proof.AttnArrays
import proofs.«148440_j18734647345730_2_alg».proof.Proof.HostGlue

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The q array the attention region finds is the projection of the input by the q weights and bias. -/
theorem q_rows (c : Dev nD) :
    rows (V3 m ρ c main_v8) = Cert.Attn.lin (m ((c : Thread nD τ).loc main_arg0)) (m ((c : Thread nD τ).loc main_arg1)) (m ((c : Thread nD τ).loc main_arg2)) := by
  funext b s e
  show (V3 m ρ c main_v8 : S4x2048x1024.Idx → EReal) (ix3 b s e) = _
  rw [Glue.entry_q m ρ c b s e]
  rw [show (W2 m ρ c (Proc.devRef .tc main_v7_0) : S8192x1024.Idx → EReal) = (dat0 (V1 m ρ) c).arrAt 7 cfg0.N from W2_arr m ρ c 7]
  rw [final7 (V1 m ρ) c]
  unfold rowsProj Cert.Attn.lin
  have hb : (⟨(b.val * 2048 + s.val) / 2048, by have := b.isLt; have := s.isLt; omega⟩ : Fin 4) = b := Fin.ext (by have := s.isLt; show (b.val * 2048 + s.val) / 2048 = b.val; omega)
  have hs : (⟨(b.val * 2048 + s.val) % 2048, by omega⟩ : Fin 2048) = s := Fin.ext (by have := s.isLt; show (b.val * 2048 + s.val) % 2048 = s.val; omega)
  refine congrArg₂ (· + ·) (Finset.sum_congr rfl fun d _ => congrArg₂ (· * ·) ?_ ?_) ?_
  · refine (Glue.entry_x m ρ c _ d).trans ?_
    show m ((c : Thread nD τ).loc main_arg0) (ix3 (⟨(b.val * 2048 + s.val) / 2048, _⟩ : Fin 4) (⟨(b.val * 2048 + s.val) % 2048, _⟩ : Fin 2048) d) = _
    rw [hb, hs]
  · exact Glue.entry_wq m ρ c _
  · exact Glue.entry_bq m ρ c e

/-- The k array the attention region finds is the projection of the input by the k weights and bias. -/
theorem k_rows (c : Dev nD) :
    rows (V3 m ρ c main_v9) = Cert.Attn.lin (m ((c : Thread nD τ).loc main_arg0)) (m ((c : Thread nD τ).loc main_arg3)) (m ((c : Thread nD τ).loc main_arg4)) := by
  funext b s e
  show (V3 m ρ c main_v9 : S4x2048x1024.Idx → EReal) (ix3 b s e) = _
  rw [Glue.entry_k m ρ c b s e]
  rw [show (W2 m ρ c (Proc.devRef .tc main_v7_1) : S8192x1024.Idx → EReal) = (dat0 (V1 m ρ) c).arrAt 8 cfg0.N from W2_arr m ρ c 8]
  rw [final8 (V1 m ρ) c]
  unfold rowsProj Cert.Attn.lin
  have hb : (⟨(b.val * 2048 + s.val) / 2048, by have := b.isLt; have := s.isLt; omega⟩ : Fin 4) = b := Fin.ext (by have := s.isLt; show (b.val * 2048 + s.val) / 2048 = b.val; omega)
  have hs : (⟨(b.val * 2048 + s.val) % 2048, by omega⟩ : Fin 2048) = s := Fin.ext (by have := s.isLt; show (b.val * 2048 + s.val) % 2048 = s.val; omega)
  refine congrArg₂ (· + ·) (Finset.sum_congr rfl fun d _ => congrArg₂ (· * ·) ?_ ?_) ?_
  · refine (Glue.entry_x m ρ c _ d).trans ?_
    show m ((c : Thread nD τ).loc main_arg0) (ix3 (⟨(b.val * 2048 + s.val) / 2048, _⟩ : Fin 4) (⟨(b.val * 2048 + s.val) % 2048, _⟩ : Fin 2048) d) = _
    rw [hb, hs]
  · exact Glue.entry_wk m ρ c _
  · exact Glue.entry_bk m ρ c e

/-- The v array the attention region finds is the projection of the input by the v weights and bias. -/
theorem v_rows (c : Dev nD) :
    rows (V3 m ρ c main_v10) = Cert.Attn.lin (m ((c : Thread nD τ).loc main_arg0)) (m ((c : Thread nD τ).loc main_arg5)) (m ((c : Thread nD τ).loc main_arg6)) := by
  funext b s e
  show (V3 m ρ c main_v10 : S4x2048x1024.Idx → EReal) (ix3 b s e) = _
  rw [Glue.entry_v m ρ c b s e]
  rw [show (W2 m ρ c (Proc.devRef .tc main_v7_2) : S8192x1024.Idx → EReal) = (dat0 (V1 m ρ) c).arrAt 9 cfg0.N from W2_arr m ρ c 9]
  rw [final9 (V1 m ρ) c]
  unfold rowsProj Cert.Attn.lin
  have hb : (⟨(b.val * 2048 + s.val) / 2048, by have := b.isLt; have := s.isLt; omega⟩ : Fin 4) = b := Fin.ext (by have := s.isLt; show (b.val * 2048 + s.val) / 2048 = b.val; omega)
  have hs : (⟨(b.val * 2048 + s.val) % 2048, by omega⟩ : Fin 2048) = s := Fin.ext (by have := s.isLt; show (b.val * 2048 + s.val) % 2048 = s.val; omega)
  refine congrArg₂ (· + ·) (Finset.sum_congr rfl fun d _ => congrArg₂ (· * ·) ?_ ?_) ?_
  · refine (Glue.entry_x m ρ c _ d).trans ?_
    show m ((c : Thread nD τ).loc main_arg0) (ix3 (⟨(b.val * 2048 + s.val) / 2048, _⟩ : Fin 4) (⟨(b.val * 2048 + s.val) % 2048, _⟩ : Fin 2048) d) = _
    rw [hb, hs]
  · exact Glue.entry_wv m ρ c _
  · exact Glue.entry_bv m ρ c e

/-- THE RESULT: at the last boundary the result buffer, at (b, i, e), holds the first arrangement of the attention of
    the three projections of the input. -/
theorem result_apply (c : Dev nD) (b : Fin 4) (i : Fin 2048) (e : Fin 1024) :
    (W4 m ρ c (Proc.devRef .tc main_v11) : S4x2048x1024.Idx → EReal) (ix3 b i e)
      = Cert.Attn.outK (Ideal.ofBits .bf16 0x3D00#16)
          (Cert.Attn.lin (m ((c : Thread nD τ).loc main_arg0)) (m ((c : Thread nD τ).loc main_arg1)) (m ((c : Thread nD τ).loc main_arg2)))
          (Cert.Attn.lin (m ((c : Thread nD τ).loc main_arg0)) (m ((c : Thread nD τ).loc main_arg3)) (m ((c : Thread nD τ).loc main_arg4)))
          (Cert.Attn.lin (m ((c : Thread nD τ).loc main_arg0)) (m ((c : Thread nD τ).loc main_arg5)) (m ((c : Thread nD τ).loc main_arg6))) b i e := by
  rw [show (W4 m ρ c (Proc.devRef .tc main_v11) : S4x2048x1024.Idx → EReal) = (dat1 (V3 m ρ) c).arrAt 3 cfg1.N from W4_arr m ρ c 3]
  rw [final3 (V3 m ρ) c]
  unfold attnG
  rw [q_rows m ρ c, k_rows m ρ c, v_rows m ρ c]

end Cert.KernelIdeal.Arrays

end
-- ==== Proof.RefClosed.lean ====
/-
  The reference computation read at one index.

  The reference forms three affine projections q, k, v of the input, the scores (Σ_d q(b,i,d)·k(b,j,d))·c with
  c = 1/√1024, subtracts from every score of a row the larger of -∞ and the row's maximum, exponentiates, divides each
  weight by the row's sum of weights (a sum started from 0), and contracts the normalised weights with v.  Each lemma
  below reads one of these stages at an index in coordinates; the last one states that the result at (b, i, e) is the
  second arrangement of the attention formula, `Cert.Attn.outR`.  The scale c is kept as the term
  `div 1.0 (sqrt 1024.0)` on the extended reals and is never evaluated.
-/
import proofs.«148440_j18734647345730_2_alg».proof.Proof.Gen.ReferenceIdeal.Read
import proofs.«148440_j18734647345730_2_alg».proof.Proof.AttnSpec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

/-- The query projection at (b, s, e): the row of x contracted with column e of the weights, plus the bias. -/
theorem q_apply (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (b : Fin 4) (s : Fin 2048) (e : Fin 1024) :
    val_main_v3 (F := Ideal) x0 x1 x2 (ix3 b s e) = lin x0 x1 x2 b s e := by
  rw [val_main_v3_apply, val_main_v0_apply, val_main_v2_apply, val_main_v1_apply]
  have hl : ∀ d : Fin 1024, lidx_main_v0 (ix3 b s e) d = ix3 b s d := fun d => funext fun a => Fin.ext (by
    match a with | ⟨0, _⟩ => rfl | ⟨1, _⟩ => rfl | ⟨2, _⟩ => rfl)
  have hr : ∀ d : Fin 1024, ridx_main_v0 (ix3 b s e) d = ix2 d e := fun d => funext fun a => Fin.ext (by
    match a with | ⟨0, _⟩ => rfl | ⟨1, _⟩ => rfl)
  have hb : idx_main_v1 (idx_main_v2 (ix3 b s e)) = ix1 e := funext fun a => Fin.ext (by
    match a with | ⟨0, _⟩ => rfl)
  simp only [hl, hr, hb, Ideal.addf_def]
  rfl

/-- The key projection at (b, s, e). -/
theorem k_apply (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 2048) (e : Fin 1024) :
    val_main_v7 (F := Ideal) x0 x3 x4 (ix3 b s e) = lin x0 x3 x4 b s e := by
  rw [val_main_v7_apply, val_main_v4_apply, val_main_v6_apply, val_main_v5_apply]
  have hl : ∀ d : Fin 1024, lidx_main_v4 (ix3 b s e) d = ix3 b s d := fun d => funext fun a => Fin.ext (by
    match a with | ⟨0, _⟩ => rfl | ⟨1, _⟩ => rfl | ⟨2, _⟩ => rfl)
  have hr : ∀ d : Fin 1024, ridx_main_v4 (ix3 b s e) d = ix2 d e := fun d => funext fun a => Fin.ext (by
    match a with | ⟨0, _⟩ => rfl | ⟨1, _⟩ => rfl)
  have hb : idx_main_v5 (idx_main_v6 (ix3 b s e)) = ix1 e := funext fun a => Fin.ext (by
    match a with | ⟨0, _⟩ => rfl)
  simp only [hl, hr, hb, Ideal.addf_def]
  rfl

/-- The value projection at (b, s, e). -/
theorem v_apply (x0 : (⟨S4x2048x1024, .f32⟩ : BufTy).Contents (Elt Ideal)) (x5 : (⟨S1024x1024, .f32⟩ : BufTy).Contents (Elt Ideal))
    (x6 : (⟨S1024, .f32⟩ : BufTy).Contents (Elt Ideal)) (b : Fin 4) (s : Fin 2048) (e : Fin 1024) :
    val_main_v11 (F := Ideal) x0 x5 x6 (ix3 b s e) = lin x0 x5 x6 b s e := by
  rw [val_main_v11_apply, val_main_v8_apply, val_main_v10_apply, val_main_v9_apply]
  have hl : ∀ d : Fin 1024, lidx_main_v8 (ix3 b s e) d = ix3 b s d := fun d => funext fun a => Fin.ext (by
    match a with | ⟨0, _⟩ => rfl | ⟨1, _⟩ => rfl | ⟨2, _⟩ => rfl)
  have hr : ∀ d : Fin 1024, ridx_main_v8 (ix3 b s e) d = ix2 d e := fun d => funext fun a => Fin.ext (by
    match a with | ⟨0, _⟩ => rfl | ⟨1, _⟩ => rfl)
  have hb : idx_main_v9 (idx_main_v10 (ix3 b s e)) = ix1 e := funext fun a => Fin.ext (by
    match a with | ⟨0, _⟩ => rfl)
  simp only [hl, hr, hb, Ideal.addf_def]
  rfl

/-- The scale the scores are multiplied by: 1 / √1024, kept as a term. -/
abbrev scale : EReal := Ideal.div (Ideal.ofBits .f32 0x3F800000#32) (Ideal.sqrt (Ideal.ofBits .f32 0x44800000#32))

/-- The scaled scores at (b, i, j): the contraction of query row i with key row j, times the scale. -/
theorem scores_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i j : Fin 2048) :
    val_main_v16 (F := Ideal) x0 x1 x2 x3 x4 (ix3 b i j)
      = scoreR scale (lin x0 x1 x2) (lin x0 x3 x4) b i j := by
  rw [val_main_v16_apply, val_main_v14_apply, val_main_v15_apply, val_main_v13_apply, val_main_v12_apply,
    val_main_cst_apply, val_main_cst_0_apply]
  have hl : ∀ d : Fin 1024, lidx_main_v14 (ix3 b i j) d = ix3 b i d := fun d => funext fun a => Fin.ext (by
    match a with | ⟨0, _⟩ => rfl | ⟨1, _⟩ => rfl | ⟨2, _⟩ => rfl)
  have hr : ∀ d : Fin 1024, ridx_main_v14 (ix3 b i j) d = ix3 b j d := fun d => funext fun a => Fin.ext (by
    match a with | ⟨0, _⟩ => rfl | ⟨1, _⟩ => rfl | ⟨2, _⟩ => rfl)
  simp only [hl, hr, q_apply, k_apply, Ideal.mulf_def, Ideal.hostDivf_def, Ideal.hostUnary_sqrt_def, Ideal.ofBits_def]
  rfl

/-- The initial value of the maximum, the bit pattern of -∞, is the bottom element. -/
theorem ofBits_negInf : Ideal.ofBits .f32 0xFF800000#32 = (⊥ : EReal) := by
  simp [Ideal.ofBits, Ideal.ieee]

/-- Dropping the last axis of a 4 × 2048 × 2048 array leaves a 4 × 2048 one. -/
theorem reduces_last : S4x2048x2048.Reduces [2] S4x2048 := by decide

/-- Row (b, i) with coordinate k put back on the dropped axis is (b, i, k). -/
theorem lift_row (b : Fin 4) (i : Fin 2048) (k : Fin 2048) :
    reduces_last.lift (ix2 b i) k = ix3 b i k := by
  funext c; apply Fin.ext
  match c with | ⟨0, _⟩ => rfl | ⟨1, _⟩ => rfl | ⟨2, _⟩ => rfl

/-- The maximum over the last axis at (b, i): the row's maximum folded from -∞. -/
theorem rowmax_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i : Fin 2048) :
    val_main_v17 (F := Ideal) x0 x1 x2 x3 x4 (ix2 b i)
      = rowMax (scoreR scale (lin x0 x1 x2) (lin x0 x3 x4) b i) := by
  unfold val_main_v17
  rw [Host.reduce_eq_fold_single FloatOps.maximumf _ _ reducesTo_S4x2048x2048_S4x2048_d2 reduces_last h_S_]
  have hf : (val_main_v16 (F := Ideal) x0 x1 x2 x3 x4 ∘ reduces_last.lift (ix2 b i))
      = scoreR scale (lin x0 x1 x2) (lin x0 x3 x4) b i := funext fun (k : Fin 2048) =>
    (congrArg (val_main_v16 (F := Ideal) x0 x1 x2 x3 x4) (lift_row b i k)).trans (scores_apply x0 x1 x2 x3 x4 b i k)
  rw [hf, val_main_cst_1_apply, Ideal.ofBits_def, ofBits_negInf]
  rfl

/-- The subtracted maximum at (b, i): the larger of -∞ and the row's maximum. -/
theorem max_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i : Fin 2048) :
    val_main_v19 (F := Ideal) x0 x1 x2 x3 x4 (ix2 b i) = max ⊥ (rowMax (scoreR scale (lin x0 x1 x2) (lin x0 x3 x4) b i)) := by
  rw [val_main_v19_apply, val_main_v18_apply, val_main_cst_2_apply, rowmax_apply, Ideal.maximumf_def, Ideal.ofBits_def,
    ofBits_negInf]

/-- The unnormalised weight at (b, i, j): the exponential of the score less the subtracted maximum. -/
theorem weights_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i j : Fin 2048) :
    val_main_v23 (F := Ideal) x0 x1 x2 x3 x4 (ix3 b i j) = weights (scoreR scale (lin x0 x1 x2) (lin x0 x3 x4) b i) (max ⊥ (rowMax (scoreR scale (lin x0 x1 x2) (lin x0 x3 x4) b i))) j := by
  rw [val_main_v23_apply, val_main_v22_apply, val_main_v21_apply, val_main_v20_apply]
  have hm : idx_main_v20 (idx_main_v21 (ix3 b i j)) = ix2 b i := funext fun a => Fin.ext (by
    match a with | ⟨0, _⟩ => rfl | ⟨1, _⟩ => rfl)
  rw [hm, max_apply, scores_apply, Ideal.hostUnary_exp_def, Ideal.subf_def]
  rfl

/-- The sum of the weights of row (b, i), from the initial value 0. -/
theorem sum_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i : Fin 2048) :
    val_main_v24 (F := Ideal) x0 x1 x2 x3 x4 (ix2 b i) = 0 + ∑ j : Fin 2048, weights (scoreR scale (lin x0 x1 x2) (lin x0 x3 x4) b i) (max ⊥ (rowMax (scoreR scale (lin x0 x1 x2) (lin x0 x3 x4) b i))) j := by
  rw [val_main_v24_apply, val_main_cst_3_apply, Ideal.ofBits_def, Ideal.ofBits_zero_f32]
  have hs : ∀ j : Fin 2048, idx_main_v24 (ix2 b i) j = ix3 b i j := fun j => funext fun a => Fin.ext (by
    match a with | ⟨0, _⟩ => rfl | ⟨1, _⟩ => rfl | ⟨2, _⟩ => rfl)
  simp only [hs, weights_apply]

/-- The normalised weight at (b, i, j): the weight divided by the row's sum. -/
theorem prob_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i j : Fin 2048) :
    val_main_v27 (F := Ideal) x0 x1 x2 x3 x4 (ix3 b i j)
      = Ideal.div (weights (scoreR scale (lin x0 x1 x2) (lin x0 x3 x4) b i) (max ⊥ (rowMax (scoreR scale (lin x0 x1 x2) (lin x0 x3 x4) b i))) j) (0 + ∑ j' : Fin 2048, weights (scoreR scale (lin x0 x1 x2) (lin x0 x3 x4) b i) (max ⊥ (rowMax (scoreR scale (lin x0 x1 x2) (lin x0 x3 x4) b i))) j') := by
  rw [val_main_v27_apply, val_main_v26_apply, val_main_v25_apply]
  have hm : idx_main_v25 (idx_main_v26 (ix3 b i j)) = ix2 b i := funext fun a => Fin.ext (by
    match a with | ⟨0, _⟩ => rfl | ⟨1, _⟩ => rfl)
  rw [hm, sum_apply, weights_apply, Ideal.hostDivf_def]

/-- The reference's result at (b, i, e) is the second arrangement of the attention formula: every weight normalised,
    then contracted with the values. -/
theorem ref_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (i : Fin 2048) (e : Fin 1024) :
    Cert.ReferenceIdeal.Read.val_main_v28 (F := Ideal) x0 x1 x2 x3 x4 x5 x6 (ValueIdx.ix3 b i e)
      = Cert.Attn.outR (Ideal.div (Ideal.ofBits .f32 0x3F800000#32) (Ideal.sqrt (Ideal.ofBits .f32 0x44800000#32)))
          (Cert.Attn.lin x0 x1 x2) (Cert.Attn.lin x0 x3 x4) (Cert.Attn.lin x0 x5 x6) b i e := by
  rw [val_main_v28_apply]
  have hl : ∀ j : Fin 2048, lidx_main_v28 (ix3 b i e) j = ix3 b i j := fun j => funext fun a => Fin.ext (by
    match a with | ⟨0, _⟩ => rfl | ⟨1, _⟩ => rfl | ⟨2, _⟩ => rfl)
  have hr : ∀ j : Fin 2048, ridx_main_v28 (ix3 b i e) j = ix3 b j e := fun j => funext fun a => Fin.ext (by
    match a with | ⟨0, _⟩ => rfl | ⟨1, _⟩ => rfl | ⟨2, _⟩ => rfl)
  simp only [hl, hr, prob_apply, v_apply]
  rfl

end Cert.ReferenceIdeal.RefValue

end
-- ==== Proof.AttnAlgebra.lean ====
/-
  The two arrangements of scaled dot-product attention agree on the extended reals.

  When the query row and every key row are real, both score rows are the same row of reals, so their
  maximum is a real M, every weight exp(s_j - M) is a positive real, and the sum L of the weights is a
  positive real.  Division by L is then multiplication by the nonnegative real 1/L, and a nonnegative
  real distributes over every sum of extended reals, the values being arbitrary (infinite entries
  included).  Hence  (Σ_j p_j·v_j)/L = Σ_j (p_j/L)·v_j.

  Also here: both spellings of the scale denote the real 1/32, and an affine projection of real data is real.
-/
import proofs.«148440_j18734647345730_2_alg».proof.Proof.AttnSpec

noncomputable section

namespace Cert.Attn

open Idealize.ShloMosaic

/-! ### The scale, spelled two ways -/

/-- The bf16 pattern with exponent field 122 and zero fraction denotes 2⁻⁵. -/
theorem scale_kernel : Ideal.ofBits .bf16 0x3D00#16 = ((1/32 : ℝ) : EReal) := by
  simp [Ideal.ofBits, Ideal.ieee, -EReal.coe_mul]; norm_num

/-- The f32 pattern of 1.0 denotes the real 1. -/
theorem ofBits_f32_one : Ideal.ofBits .f32 0x3F800000#32 = ((1 : ℝ) : EReal) := by
  simp [Ideal.ofBits, Ideal.ieee, -EReal.coe_mul]; norm_num

/-- The f32 pattern of 1024.0 denotes the real 1024. -/
theorem ofBits_f32_1024 : Ideal.ofBits .f32 0x44800000#32 = ((1024 : ℝ) : EReal) := by
  simp [Ideal.ofBits, Ideal.ieee, -EReal.coe_mul]; norm_num

/-- 1 / √1024 = 1/32, since 1024 = 32². -/
theorem scale_ref :
    Ideal.div (Ideal.ofBits .f32 0x3F800000#32) (Ideal.sqrt (Ideal.ofBits .f32 0x44800000#32))
      = ((1/32 : ℝ) : EReal) := by
  have h32 : Real.sqrt 1024 = 32 := by
    rw [show (1024 : ℝ) = 32 ^ 2 by norm_num]
    exact Real.sqrt_sq (by norm_num)
  rw [ofBits_f32_one, ofBits_f32_1024, Ideal.sqrt_coe, if_neg (by norm_num), h32,
    Ideal.div_coe (by norm_num), ← EReal.coe_mul]
  norm_num

/-! ### Finite sums of extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A nonnegative real factor distributes over a finite sum of arbitrary extended reals. -/
theorem sum_mul_coe_nonneg {ι : Type*} (s : Finset ι) (f : ι → EReal) {t : ℝ} (ht : 0 ≤ t) :
    (∑ i ∈ s, f i) * (t : EReal) = ∑ i ∈ s, f i * (t : EReal) := by
  classical
  refine Finset.induction_on s (by simp) ?_
  intro a s ha ih
  rw [Finset.sum_insert ha, Finset.sum_insert ha,
    EReal.right_distrib_of_nonneg_of_ne_top (by exact_mod_cast ht) (EReal.coe_ne_top t), ih]

/-! ### Real entries stay real -/

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sum {ι : Type*} (s : Finset ι) (f : ι → EReal) (h : ∀ i ∈ s, IsReal (f i)) :
    IsReal (∑ i ∈ s, f i) := by
  choose! g hg using h
  exact ⟨∑ i ∈ s, g i, by rw [coe_sum]; exact Finset.sum_congr rfl hg⟩

/-- An affine projection of real data with real weights and a real bias is real. -/
theorem lin_isReal (x : Arr3) (W : Mat) (β : Vec1) (hx : ∀ i, IsReal (x i)) (hW : ∀ i, IsReal (W i))
    (hβ : ∀ i, IsReal (β i)) (b : Fin 4) (s : Fin 2048) (e : Fin 1024) : IsReal (lin x W β b s e) :=
  isReal_add (isReal_sum _ _ fun d _ => isReal_mul (hx _) (hW _)) (hβ _)

/-! ### The score rows -/

/-- With a real scale, a real query row and real key rows, the two score rows are one row of reals. -/
theorem scores_real (c : ℝ) (q k : Rows) (b : Fin 4) (i : Fin 2048)
    (hq : ∀ d, IsReal (q b i d)) (hk : ∀ j d, IsReal (k b j d)) :
    ∃ s : Fin 2048 → ℝ, scoreK (c : EReal) q k b i = (fun j => (s j : EReal)) ∧
      scoreR (c : EReal) q k b i = (fun j => (s j : EReal)) := by
  choose q' hq' using hq
  choose k' hk' using hk
  refine ⟨fun j => ∑ d : Fin 1024, (q' d * c) * k' j d, ?_, ?_⟩
  · funext j
    simp only [scoreK, hq', hk']
    rw [coe_sum]
    refine Finset.sum_congr rfl fun d _ => ?_
    rw [EReal.coe_mul, EReal.coe_mul]
  · funext j
    simp only [scoreR, hq', hk']
    have hre : (∑ d : Fin 1024, (q' d * c) * k' j d) = (∑ d : Fin 1024, q' d * k' j d) * c := by
      rw [Finset.sum_mul]
      exact Finset.sum_congr rfl fun d _ => by ring
    rw [hre, EReal.coe_mul, coe_sum]
    simp only [EReal.coe_mul]

/-! ### The maximum of a row of reals -/

/-- The maximum of 2048 reals, folded from -∞, is a real: it is at least the first entry and below +∞. -/
theorem rowMax_coe_isReal (s : Fin 2048 → ℝ) : IsReal (rowMax fun j => (s j : EReal)) := by
  have hlt : rowMax (fun j => (s j : EReal)) < ⊤ := by
    rw [rowMax, Finset.fold_max_lt]
    exact ⟨bot_lt_top, fun j _ => EReal.coe_lt_top (s j)⟩
  have hgt : ⊥ < rowMax (fun j => (s j : EReal)) := by
    refine lt_of_lt_of_le (EReal.bot_lt_coe (s 0)) ?_
    rw [rowMax, Finset.le_fold_max]
    exact Or.inr ⟨0, Finset.mem_univ _, le_rfl⟩
  exact ⟨(rowMax fun j => (s j : EReal)).toReal, (EReal.coe_toReal hlt.ne hgt.ne').symm⟩

/-! ### Normalising after or before the value contraction -/

/-- For a row of real scores and ARBITRARY values w: the weighted sum divided by the sum of weights equals the
    sum of the normalised weights times the values.  The sum of weights is a positive real L, so both
    quotients are products with the nonnegative real 1/L, which distributes over the sum. -/
theorem normalise_comm (s : Fin 2048 → ℝ) (w : Fin 2048 → EReal) :
    Ideal.div (∑ j : Fin 2048, weights (fun j => (s j : EReal)) (rowMax fun j => (s j : EReal)) j * w j)
        (∑ j : Fin 2048, weights (fun j => (s j : EReal)) (rowMax fun j => (s j : EReal)) j)
      = ∑ j : Fin 2048,
          Ideal.div (weights (fun j => (s j : EReal)) (max ⊥ (rowMax fun j => (s j : EReal))) j)
            (0 + ∑ j' : Fin 2048,
              weights (fun j => (s j : EReal)) (max ⊥ (rowMax fun j => (s j : EReal))) j') * w j := by
  obtain ⟨m, hm⟩ := rowMax_coe_isReal s
  have hmax : ∀ a : EReal, max ⊥ a = a := fun a => max_eq_right bot_le
  have hw : ∀ j, weights (fun j => (s j : EReal)) (m : EReal) j = ((Real.exp (s j - m) : ℝ) : EReal) := by
    intro j
    simp only [weights]
    rw [← EReal.coe_sub, Ideal.exp_coe]
  have hL : 0 < ∑ j : Fin 2048, Real.exp (s j - m) :=
    Finset.sum_pos (fun j _ => Real.exp_pos _) Finset.univ_nonempty
  rw [hmax, zero_add, hm]
  simp only [hw]
  rw [← coe_sum, Ideal.div_coe hL.ne']
  simp only [Ideal.div_coe hL.ne']
  rw [sum_mul_coe_nonneg _ _ (one_div_nonneg.mpr hL.le)]
  exact Finset.sum_congr rfl fun j _ => mul_right_comm _ _ _

/-! ### The two arrangements agree -/

/-- With scale 1/32, a real query row and real key rows, the two arrangements give the same entry, whatever the
    values (infinite ones included). -/
theorem outK_eq_outR (q k v : Rows) (b : Fin 4) (i : Fin 2048) (e : Fin 1024)
    (hq : ∀ d, IsReal (q b i d)) (hk : ∀ j d, IsReal (k b j d)) :
    outK ((1/32 : ℝ) : EReal) q k v b i e = outR ((1/32 : ℝ) : EReal) q k v b i e := by
  obtain ⟨s, hK, hR⟩ := scores_real (1/32) q k b i hq hk
  unfold outK outR
  rw [hK, hR]
  exact normalise_comm s fun j => v b j e

end Cert.Attn

end
-- ==== Proof.FiniteInputs.lean ====
/-
  Finite inputs are real.

  The hypothesis on the seven argument arrays says, for each array x, that the conjunction over all
  of its entries of  |x_i| < +∞  is true, and that the seven conjunctions hold together.  On the
  extended reals |x| is max x (-x), and  max x (-x) < ⊤  excludes both ⊤ and ⊥, so every entry of every
  array is (the image of) a real number.
-/
import proofs.«148440_j18734647345730_2_alg».proof.Defs
import proofs.«148440_j18734647345730_2_alg».proof.Proof.AttnSpec
import Idealize.ShloMosaic.Lib.ReduceAll
import Idealize.ShloMosaic.Lib.ValueIdx
import Idealize.ShloMosaic.PureOps.Ideal.Laws

noncomputable section

namespace Cert.KernelIdeal.Finite

open Idealize.ShloMosaic Idealize.SL.Sem Cert.Pre_finite_inputs

/-- The rank-0 shape has exactly one index. -/
instance : Subsingleton S_.Idx := ⟨fun a b => funext fun d => d.elim0⟩

/-- An extended real whose absolute value max x (-x) lies strictly below ⊤ is a real number:
    at ⊤ the maximum is ⊤, at ⊥ it is -⊥ = ⊤. -/
theorem isReal_of_abs_lt_top (x : EReal) (h : max x (-x) < ⊤) : Cert.Attn.IsReal x := by
  induction x using EReal.rec with
  | bot => simp at h
  | coe r => exact ⟨r, rfl⟩
  | top => simp at h

/-- One entry: if the ordered comparison  |x| < +∞  evaluates to true, x is a real number.
    The bit pattern 0x7F800000 denotes ⊤. -/
theorem isReal_of_cmp (x : Ideal .f32)
    (h : FloatOps.cmpf .olt (FloatOps.hostAbsf x) (FloatOps.ofBits (F := Ideal) .f32 0x7F800000#32) = 1#1) :
    Cert.Attn.IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hlt : max (x : EReal) (-(x : EReal)) < ⊤
  · exact isReal_of_abs_lt_top x hlt
  · simp [hlt] at h

/-- One array of any shape: if the conjunction over all entries of  |x_i| < +∞  (against the scalar +∞
    repeated over the shape) is true, then every entry of x is a real number. -/
theorem all_real {s : Shape} {axes : List (Fin s.rank)} (x : FVec Ideal s .f32)
    (bc : S_.BroadcastsInDim s (![] : Fin 0 → Fin s.rank)) (hr : s.ReducesTo axes S_) (hu : 0 < S_.numel)
    (init : IVec S_ 1) (j : S_.Idx)
    (e : Host.reduce IntOp.andi (cmpf .olt (Host.absf x) (broadcastInDim s ![] bc (constant S_ .f32 0x7F800000#32)))
      init hr hu j = 1#1) (i : s.Idx) : Cert.Attn.IsReal (x i) :=
  isReal_of_cmp (x i) (Host.reduce_andi_all _ init hr hu j e i)

/-- Seven arrays: the seven-fold conjunction of the per-array tests being true makes every entry of each
    array a real number. -/
theorem real_of_pre [hPre : Cert.Pre_finite_inputs.Facts]
    (x0 : (⟨S4x2048x1024, .f32⟩ : BufTy).Contents (Elt Ideal))
    (x1 : (⟨S1024x1024, .f32⟩ : BufTy).Contents (Elt Ideal))
    (x2 : (⟨S1024, .f32⟩ : BufTy).Contents (Elt Ideal))
    (x3 : (⟨S1024x1024, .f32⟩ : BufTy).Contents (Elt Ideal))
    (x4 : (⟨S1024, .f32⟩ : BufTy).Contents (Elt Ideal))
    (x5 : (⟨S1024x1024, .f32⟩ : BufTy).Contents (Elt Ideal))
    (x6 : (⟨S1024, .f32⟩ : BufTy).Contents (Elt Ideal))
    (h : Cert.Pre_finite_inputs.fn (F := Ideal) x0 x1 x2 x3 x4 x5 x6 = (fun _ => 1#1)) :
    (∀ i, Cert.Attn.IsReal (x0 i)) ∧ (∀ i, Cert.Attn.IsReal (x1 i)) ∧ (∀ i, Cert.Attn.IsReal (x2 i))
      ∧ (∀ i, Cert.Attn.IsReal (x3 i)) ∧ (∀ i, Cert.Attn.IsReal (x4 i)) ∧ (∀ i, Cert.Attn.IsReal (x5 i))
      ∧ (∀ i, Cert.Attn.IsReal (x6 i)) := by
  -- the predicate's one result entry, as a left-nested conjunction of the seven per-array tests
  have e := congrFun h ValueIdx.ix0
  dsimp only [fn, fn_part1, andi] at e
  -- a conjunction of bits is 1 exactly when both are: peel the arrays off from the last to the first
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real x0 _ _ _ _ _ e0, all_real x1 _ _ _ _ _ e1, all_real x2 _ _ _ _ _ e2, all_real x3 _ _ _ _ _ e3,
    all_real x4 _ _ _ _ _ e4, all_real x5 _ _ _ _ _ e5, all_real x6 _ _ _ _ _ e6⟩

/-- The same about the seven argument arrays held in a memory that satisfies the precondition, on any device. -/
theorem real_of_pre_kernel [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Attn.IsReal (m ((c.tc : Thread Cert.KernelIdeal.nD Cert.KernelIdeal.τ).loc Cert.KernelIdeal.main_arg0) i))
      ∧ (∀ i, Cert.Attn.IsReal (m ((c.tc : Thread Cert.KernelIdeal.nD Cert.KernelIdeal.τ).loc Cert.KernelIdeal.main_arg1) i))
      ∧ (∀ i, Cert.Attn.IsReal (m ((c.tc : Thread Cert.KernelIdeal.nD Cert.KernelIdeal.τ).loc Cert.KernelIdeal.main_arg2) i))
      ∧ (∀ i, Cert.Attn.IsReal (m ((c.tc : Thread Cert.KernelIdeal.nD Cert.KernelIdeal.τ).loc Cert.KernelIdeal.main_arg3) i))
      ∧ (∀ i, Cert.Attn.IsReal (m ((c.tc : Thread Cert.KernelIdeal.nD Cert.KernelIdeal.τ).loc Cert.KernelIdeal.main_arg4) i))
      ∧ (∀ i, Cert.Attn.IsReal (m ((c.tc : Thread Cert.KernelIdeal.nD Cert.KernelIdeal.τ).loc Cert.KernelIdeal.main_arg5) i))
      ∧ (∀ i, Cert.Attn.IsReal (m ((c.tc : Thread Cert.KernelIdeal.nD Cert.KernelIdeal.τ).loc Cert.KernelIdeal.main_arg6) i)) :=
  real_of_pre _ _ _ _ _ _ _ (h c)

end Cert.KernelIdeal.Finite

end
-- ==== Proof.lean ====
/-
  The certificate of a two-region softmax-attention kernel against its plain reference, over the extended reals.

  Both programs compute, for x : [4, 2048, 1024] and three weight/bias pairs, the projections
  q = x·Wq + bq, k = x·Wk + bk, v = x·Wv + bv and then, per batch b and query row i,
      out(b,i,·) = Σ_j softmax_j(q(b,i,·)·k(b,j,·) / 32) · v(b,j,·).
  The kernel multiplies the query by 2⁻⁵ before the score contraction and divides the weighted sum of values by the sum
  of the exponentials afterwards; the reference multiplies the contracted scores by 1/√1024 and divides every
  exponential by their sum before contracting with the values.  On the extended reals the two agree once the scores
  are real numbers: then the row maximum is real, the exponentials are positive reals, their sum L is a positive real,
  division by L is multiplication by the real 1/L ≥ 0, and a nonnegative real factor distributes over any finite sum of
  extended reals (the values themselves may be infinite).  The scores are real because the inputs are finite — the one
  place the precondition is used.

  The three frames: the two kernels' are generated whole; the reference's is its generated run with the result
  dropped.  The idealization rewrote nothing, so `preserves` is `True`.  For `algebraic`: the kernel's run with its
  result named (KernelRun), the result index by index as the first arrangement of the specification (ProjArrays,
  AttnArrays, HostGlue, KernelValue over the payloads of KernelPayload), the reference's result as the second
  arrangement (RefClosed over the generated reading of its operations), the two scale constants both 1/32 and the
  algebraic law joining the arrangements (AttnAlgebra), and the inputs' finiteness from the precondition (FiniteInputs).
-/
import proofs.«148440_j18734647345730_2_alg».proof.Defs
import proofs.«148440_j18734647345730_2_alg».proof.Proof.Gen.Kernel
import proofs.«148440_j18734647345730_2_alg».proof.Proof.Gen.Kernel.Skeleton
import proofs.«148440_j18734647345730_2_alg».proof.Proof.Gen.Kernel.Launch
import proofs.«148440_j18734647345730_2_alg».proof.Proof.Gen.Kernel.Points
import proofs.«148440_j18734647345730_2_alg».proof.Proof.Gen.Kernel.Frame
import proofs.«148440_j18734647345730_2_alg».proof.Proof.Gen.KernelIdeal
import proofs.«148440_j18734647345730_2_alg».proof.Proof.Gen.KernelIdeal.Skeleton
import proofs.«148440_j18734647345730_2_alg».proof.Proof.Gen.KernelIdeal.Launch
import proofs.«148440_j18734647345730_2_alg».proof.Proof.Gen.KernelIdeal.Points
import proofs.«148440_j18734647345730_2_alg».proof.Proof.Gen.KernelIdeal.Frame
import proofs.«148440_j18734647345730_2_alg».proof.Proof.Gen.ReferenceIdeal
import proofs.«148440_j18734647345730_2_alg».proof.Proof.Gen.ReferenceIdeal.Run
import proofs.«148440_j18734647345730_2_alg».proof.Proof.Gen.ReferenceIdeal.Read
import proofs.«148440_j18734647345730_2_alg».proof.Proof.Gen.Pre_finite_inputs
import proofs.«148440_j18734647345730_2_alg».proof.Proof.KernelRun
import proofs.«148440_j18734647345730_2_alg».proof.Proof.KernelValue
import proofs.«148440_j18734647345730_2_alg».proof.Proof.RefClosed
import proofs.«148440_j18734647345730_2_alg».proof.Proof.AttnAlgebra
import proofs.«148440_j18734647345730_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the extended reals both programs end, from memories agreeing on the seven arguments, with the same result:
    entry (b, i, e) is the attention of the three projections, in the kernel's arrangement on one side and the
    reference's on the other, equal because the projections of finite inputs are real. -/
theorem algebraic : Cert.algebraic_KernelIdeal_ReferenceIdeal := by
  intro m ρ m' ρ' hpre hagree
  refine ⟨fun c => Cert.KernelIdeal.Gen.W4 m ρ c (Proc.devRef .tc Cert.KernelIdeal.main_v11),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  obtain ⟨a0, a1, a2, a3, a4, a5, a6⟩ := hagree c
  rw [a0, a1, a2, a3, a4, a5, a6]
  obtain ⟨r0, r1, r2, r3, r4, r5, r6⟩ := Cert.KernelIdeal.Finite.real_of_pre_kernel m hpre c
  funext j
  obtain ⟨b, i, e, rfl⟩ : ∃ (b : Fin 4) (i : Fin 2048) (e : Fin 1024), j = ValueIdx.ix3 b i e :=
    ⟨j 0, j 1, j 2, ValueIdx.eq_ix3 j⟩
  rw [Cert.ReferenceIdeal.RefValue.ref_apply]
  refine Eq.trans ?_ (Cert.KernelIdeal.Arrays.result_apply m ρ c b i e).symm
  rw [Cert.Attn.scale_ref, Cert.Attn.scale_kernel]
  exact (Cert.Attn.outK_eq_outR _ _ _ b i e (fun d => Cert.Attn.lin_isReal _ _ _ r0 r1 r2 b i d)
    (fun j d => Cert.Attn.lin_isReal _ _ _ r0 r3 r4 b j d)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
